-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S32768x1024 : Shape := ⟨2, ![32768, 1024]⟩
abbrev S1x8 : Shape := ⟨2, ![1, 8]⟩
abbrev S1x4096 : Shape := ⟨2, ![1, 4096]⟩
abbrev S1x1024 : Shape := ⟨2, ![1, 1024]⟩
abbrev S512x128 : Shape := ⟨2, ![512, 128]⟩
abbrev S512x1024 : Shape := ⟨2, ![512, 1024]⟩
abbrev S512x8 : Shape := ⟨2, ![512, 8]⟩
abbrev S512x4096 : Shape := ⟨2, ![512, 4096]⟩

abbrev nBuf : Space → Nat
  | .hbm => 15
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S32768x1024, .f32⟩
  | .hbm, ⟨7, _⟩ => ⟨S8, .f32⟩
  | .hbm, ⟨8, _⟩ => ⟨S1x8, .f32⟩
  | .hbm, ⟨9, _⟩ => ⟨S4096x8, .bf16⟩
  | .hbm, ⟨10, _⟩ => ⟨S1x4096, .f32⟩
  | .hbm, ⟨11, _⟩ => ⟨S1024x4096, .bf16⟩
  | .hbm, ⟨12, _⟩ => ⟨S1x1024, .f32⟩
  | .hbm, ⟨13, _⟩ => ⟨S32768x1024, .f32⟩
  | .hbm, ⟨14, _⟩ => ⟨S8x4096x1024, .f32⟩
  | .local _ .vmem, ⟨0, _⟩ => ⟨S512x128, .f32⟩
  | .local _ .vmem, ⟨1, _⟩ => ⟨S512x128, .f32⟩
  | .local _ .vmem, ⟨2, _⟩ => ⟨S1x8, .f32⟩
  | .local _ .vmem, ⟨3, _⟩ => ⟨S4096x8, .bf16⟩
  | .local _ .vmem, ⟨4, _⟩ => ⟨S1x4096, .f32⟩
  | .local _ .vmem, ⟨5, _⟩ => ⟨S1024x4096, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  shapeCasts_S8_S1x8 : S8.ShapeCasts S1x8
  bitsLt_bf16_f32 : FTy.bits .bf16 < FTy.bits .f32
  shapeCasts_S4096_S1x4096 : S4096.ShapeCasts S1x4096
  shapeCasts_S1024_S1x1024 : S1024.ShapeCasts S1x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x8 : S512x128.Slices ![0, 0] S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S32768x1024_S8x4096x1024 : S32768x1024.ShapeCasts S8x4096x1024
  dot_S512x8_S4096x8_S512x4096_1_1_0_0_n_n_wf : DotDims.WF S512x8 S4096x8 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x1024.size a
  hwx0_0 : ∀ i : grid0.Coords, EltTy.bits .f32 = 32 ∨ (Rect.block (s := S32768x1024) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S4096x8.size a
  hwx0_2 : ∀ i : grid0.Coords, EltTy.bits .bf16 = 32 ∨ (Rect.block (s := S4096x8) S4096x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x8_S4096x8_S512x4096_1_1_0_0_n_n : DotDims S512x8 S4096x8 S512x4096 where
  lhsContracting := [1]
  rhsContracting := [1]
  lhsNonContracting := [0]
  rhsNonContracting := [0]
  lhsBatch := []
  rhsBatch := []
  wf := dot_S512x8_S4096x8_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x4096x8 : Shape := ⟨3, ![8, 4096, 8]⟩
abbrev S1x1x8 : Shape := ⟨3, ![1, 1, 8]⟩
abbrev S8x4096x4096 : Shape := ⟨3, ![8, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8, .f32⟩
  | .hbm, ⟨7, _⟩ => ⟨S8x4096x8, .f32⟩
  | .hbm, ⟨8, _⟩ => ⟨S8x4096x8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x4096, .f32⟩
  | .hbm, ⟨13, _⟩ => ⟨S1x1x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x1024_S8x4096x8_0_0_0 : S8x4096x1024.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x8_S4096x8_S8x4096x4096_2_1_01_0_n_n_wf : DotDims.WF S8x4096x8 S4096x8 S8x4096x4096 [2] [1] [0, 1] [0] [] []
  dot_S8x4096x4096_S1024x4096_S8x4096x1024_2_1_01_0_n_n_wf : DotDims.WF S8x4096x4096 S1024x4096 S8x4096x1024 [2] [1] [0, 1] [0] [] []

variable [Facts₀]

def dot_S8x4096x8_S4096x8_S8x4096x4096_2_1_01_0_n_n : DotDims S8x4096x8 S4096x8 S8x4096x4096 where
  lhsContracting := [2]
  rhsContracting := [1]
  lhsNonContracting := [0, 1]
  rhsNonContracting := [0]
  lhsBatch := []
  rhsBatch := []
  wf := dot_S8x4096x8_S4096x8_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf

class Facts : Prop extends Facts₀ where

variable [Facts]
-- ==== Proof.TokenMlp.lean ====
/-
  The function both programs compute, stated once over the extended reals.

  A token is one row of the input: of its 1024 features only the first 8 are used, as angles. Angle k is
  encoded as  c k * cos (a k)  where c k is the cosine of the k-th trained rotation angle. The encoded 8-vector
  goes through a two-layer perceptron with weights stored output-major:
      hidden f = max ((Σ k, enc k * W1 f k) + b1 f) 0          (4096 hidden units)
      out e    = (Σ f, hidden f * W2 e f) + b2 e                (1024 outputs)
  The zero of the rectifier is kept as the float word both programs print, so it is never evaluated.
  Nothing here needs the entries to be finite: the two programs are compared sum by sum and factor by
  factor, in the same order, so no law of the extended reals beyond reflexivity is used.
-/
import Idealize.ShloMosaic.PureOps.Ideal
import Idealize.ShloMosaic.Lib.ValueIdx

noncomputable section

open scoped BigOperators

namespace Cert.TokenMlp

open Idealize.ShloMosaic Idealize.ShloMosaic.ValueIdx

/-- The encoded angle k of a token: the trained cosine times the cosine of the token's k-th feature. -/
def enc (c a : Fin 8 → EReal) (k : Fin 8) : EReal := c k * Ideal.cos (a k)

/-- Hidden unit f of a token: the rectified affine image of the encoded angles. -/
def hiddenUnit (c a : Fin 8 → EReal) (W1 : Fin 4096 → Fin 8 → EReal) (b1 : Fin 4096 → EReal) (f : Fin 4096) : EReal :=
  max ((∑ k : Fin 8, enc c a k * W1 f k) + b1 f) (Ideal.ofBits .f32 0x00000000#32)

/-- Output e of a token: the affine image of its hidden units. -/
def tok (c a : Fin 8 → EReal) (W1 : Fin 4096 → Fin 8 → EReal) (b1 : Fin 4096 → EReal)
    (W2 : Fin 1024 → Fin 4096 → EReal) (b2 : Fin 1024 → EReal) (e : Fin 1024) : EReal :=
  (∑ f : Fin 4096, hiddenUnit c a W1 b1 f * W2 e f) + b2 e

/-- The token function depends on its arguments only through their values. -/
theorem tok_congr {c c' a a' : Fin 8 → EReal} {W1 W1' : Fin 4096 → Fin 8 → EReal} {b1 b1' : Fin 4096 → EReal}
    {W2 W2' : Fin 1024 → Fin 4096 → EReal} {b2 b2' : Fin 1024 → EReal} {e e' : Fin 1024}
    (hc : ∀ k, c k = c' k) (ha : ∀ k, a k = a' k) (hW1 : ∀ f k, W1 f k = W1' f k) (hb1 : ∀ f, b1 f = b1' f)
    (hW2 : ∀ e f, W2 e f = W2' e f) (hb2 : ∀ e, b2 e = b2' e) (he : e = e') :
    tok c a W1 b1 W2 b2 e = tok c' a' W1' b1' W2' b2' e' := by
  obtain rfl : c = c' := funext hc
  obtain rfl : a = a' := funext ha
  obtain rfl : W1 = W1' := funext fun f => funext (hW1 f)
  obtain rfl : b1 = b1' := funext hb1
  obtain rfl : W2 = W2' := funext fun e => funext (hW2 e)
  obtain rfl : b2 = b2' := funext hb2
  subst he
  rfl

/-- Feature k < 8 of a token, as a column of the 1024-wide input. -/
def col (k : Fin 8) : Fin 1024 := ⟨k.val, by have := k.isLt; omega⟩

/-- The whole result, entry (b, s, e): token (b, s) of the batch through the token function, with the trained
    cosines taken of the rotation angles `th`. -/
def result (x : (⟨3, ![8, 4096, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (b : Fin 8) (s : Fin 4096) (e : Fin 1024) : EReal :=
  tok (fun k => Ideal.cos (th (ix1 k))) (fun k => x (ix3 b s (col k))) (fun f k => W1 (ix2 f k)) (fun f => b1 (ix1 f))
    (fun e f => W2 (ix2 e f)) (fun e => b2 (ix1 e)) e

/-- The result as an array over the batch's index set. -/
def resultArr (x : (⟨3, ![8, 4096, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨3, ![8, 4096, 1024]⟩ : Shape).Idx → EReal :=
  fun i => result x th W1 b1 W2 b2 (i 0) (i 1) (i 2)

end Cert.TokenMlp

end
-- ==== Proof.RefIsSpec.lean ====
/-
  The reference program computes the token function of every token of the batch.

  Its result is read one operation at a time: the slice keeps features 0..7 of each token, the two
  broadcasts place the trained cosines along the feature axis, the first contraction runs over the 8
  features against row f of W1, the bias and the rectifier act entry by entry, and the second contraction
  runs over the 4096 hidden units against row e of W2. Entry (b, s, e) is therefore the token function of
  token (b, s) at output e, with no rearrangement of either sum.
-/
import proofs.«111499_j65481071396242_2_alg».proof.Proof.Gen.ReferenceIdeal.Read
import proofs.«111499_j65481071396242_2_alg».proof.Proof.TokenMlp

noncomputable section

open scoped BigOperators

namespace Cert.ReferenceIdeal.RefValue

open Cert.ReferenceIdeal Cert.ReferenceIdeal.Read Idealize.ShloMosaic Idealize.ShloMosaic.ValueIdx Cert.TokenMlp

variable (x0 : (⟨S8x4096x1024, .f32⟩ : BufTy).Contents (Elt Ideal)) (x1 : (⟨S8, .f32⟩ : BufTy).Contents (Elt Ideal))
  (x2 : (⟨S4096x8, .f32⟩ : BufTy).Contents (Elt Ideal)) (x3 : (⟨S4096, .f32⟩ : BufTy).Contents (Elt Ideal))
  (x4 : (⟨S1024x4096, .f32⟩ : BufTy).Contents (Elt Ideal)) (x5 : (⟨S1024, .f32⟩ : BufTy).Contents (Elt Ideal))

/-- The encoded angles of token (b, s): the product of the broadcast cosines and the cosines of the sliced features. -/
theorem enc_at (b : Fin 8) (s : Fin 4096) (k : Fin 8) :
    val_main_v5 (F := Ideal) x0 x1 (ix3 b s k)
      = enc (fun k => Ideal.cos (x1 (ix1 k))) (fun k => x0 (ix3 b s (col k))) k := by
  have e1 : idx_main_v3 (idx_main_v4 (ix3 b s k)) = ix1 k :=
    funext fun a => by match a with | ⟨0, _⟩ => rfl
  have e2 : idx_main_v1 (ix3 b s k) = ix3 b s (col k) :=
    funext fun a => by match a with | ⟨0, _⟩ => rfl | ⟨1, _⟩ => rfl | ⟨2, _⟩ => rfl
  rw [val_main_v5_apply, val_main_v4_apply, val_main_v3_apply, val_main_v0_apply, val_main_v2_apply, val_main_v1_apply, e1, e2]
  rfl

/-- Hidden unit f of token (b, s): the contraction over the 8 features, the bias, the rectifier. -/
theorem hidden_at (b : Fin 8) (s : Fin 4096) (f : Fin 4096) :
    val_main_v10 (F := Ideal) x0 x1 x2 x3 (ix3 b s f)
      = hiddenUnit (fun k => Ideal.cos (x1 (ix1 k))) (fun k => x0 (ix3 b s (col k))) (fun f k => x2 (ix2 f k)) (fun f => x3 (ix1 f)) f := by
  have e1 : idx_main_v7 (idx_main_v8 (ix3 b s f)) = ix1 f :=
    funext fun a => by match a with | ⟨0, _⟩ => rfl
  have el : ∀ k : Fin 8, lidx_main_v6 (ix3 b s f) k = ix3 b s k := fun k =>
    funext fun a => by match a with | ⟨0, _⟩ => rfl | ⟨1, _⟩ => rfl | ⟨2, _⟩ => rfl
  have er : ∀ k : Fin 8, ridx_main_v6 (ix3 b s f) k = ix2 f k := fun k =>
    funext fun a => by match a with | ⟨0, _⟩ => rfl | ⟨1, _⟩ => rfl
  rw [val_main_v10_apply, val_main_v9_apply, val_main_v6_apply, val_main_v8_apply, val_main_v7_apply,
    val_main_call0_v0_apply, val_main_call0_cst_apply, e1]
  unfold hiddenUnit
  have hs : (∑ k : Fin 8, val_main_v5 (F := Ideal) x0 x1 (lidx_main_v6 (ix3 b s f) k) * x2 (ridx_main_v6 (ix3 b s f) k))
      = ∑ k : Fin 8, enc (fun k => Ideal.cos (x1 (ix1 k))) (fun k => x0 (ix3 b s (col k))) k * x2 (ix2 f k) :=
    Finset.sum_congr rfl fun k _ => by rw [el k, er k, enc_at]
  rw [hs]
  rfl

/-- Entry (b, s, e) of the result: the contraction over the 4096 hidden units and the output bias. -/
theorem out_at (b : Fin 8) (s : Fin 4096) (e : Fin 1024) :
    val_main_v14 (F := Ideal) x0 x1 x2 x3 x4 x5 (ix3 b s e) = result x0 x1 x2 x3 x4 x5 b s e := by
  have e1 : idx_main_v12 (idx_main_v13 (ix3 b s e)) = ix1 e :=
    funext fun a => by match a with | ⟨0, _⟩ => rfl
  have el : ∀ f : Fin 4096, lidx_main_v11 (ix3 b s e) f = ix3 b s f := fun f =>
    funext fun a => by match a with | ⟨0, _⟩ => rfl | ⟨1, _⟩ => rfl | ⟨2, _⟩ => rfl
  have er : ∀ f : Fin 4096, ridx_main_v11 (ix3 b s e) f = ix2 e f := fun f =>
    funext fun a => by match a with | ⟨0, _⟩ => rfl | ⟨1, _⟩ => rfl
  rw [val_main_v14_apply, val_main_v11_apply, val_main_v13_apply, val_main_v12_apply, e1]
  unfold result tok
  have hs : (∑ f : Fin 4096, val_main_v10 (F := Ideal) x0 x1 x2 x3 (lidx_main_v11 (ix3 b s e) f) * x4 (ridx_main_v11 (ix3 b s e) f))
      = ∑ f : Fin 4096, hiddenUnit (fun k => Ideal.cos (x1 (ix1 k))) (fun k => x0 (ix3 b s (col k))) (fun f k => x2 (ix2 f k)) (fun f => x3 (ix1 f)) f * x4 (ix2 e f) :=
    Finset.sum_congr rfl fun f _ => by rw [el f, er f, hidden_at]
  rw [hs]
  rfl

/-- The reference's result array is the specification's. -/
theorem ref_is_result : val_main_v14 (F := Ideal) x0 x1 x2 x3 x4 x5 = resultArr x0 x1 x2 x3 x4 x5 := by
  funext i
  obtain ⟨b, s, e, rfl⟩ : ∃ (b : Fin 8) (s : Fin 4096) (e : Fin 1024), i = ix3 b s e := ⟨i 0, i 1, i 2, eq_ix3 i⟩
  exact out_at x0 x1 x2 x3 x4 x5 b s e

end Cert.ReferenceIdeal.RefValue

end
-- ==== Proof.BodyAtIndex.lean ====
/-
  What the kernel body stores, entry by entry.

  The body loads a 512-token block of the input, 128 features wide, keeps features 0..7, multiplies their
  cosines by the row of trained cosines, contracts the 8 encoded angles against each row of W1, adds the
  bias row, rectifies, contracts the 4096 hidden units against each row of W2 and adds the output bias row.
  Both products accumulate into a zero matrix, so each is the plain sum over its contracted axis; the changes
  of float format are the identity on the extended reals. Entry (p, e) of the stored block is therefore the
  token function of the block's row p at output e.
-/
import proofs.«111499_j65481071396242_2_alg».proof.Proof.Gen.KernelIdeal.Skeleton
import proofs.«111499_j65481071396242_2_alg».proof.Proof.TokenMlp
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.TokenMlp

/-- Feature k < 8 of a token, as a lane of the 128-wide input block. -/
def lane (k : Fin 8) : Fin 128 := ⟨k.val, by have := k.isLt; omega⟩

/-! ## The two contractions as sums over one coordinate -/

theorem featLhs_row (i : S512x4096.Idx) (q : dot_S512x8_S4096x8_S512x4096_1_1_0_0_n_n.contr.Idx) :
    (dot_S512x8_S4096x8_S512x4096_1_1_0_0_n_n.lhsIdx i q 0).val = (i 0).val := by
  unfold DotDims.lhsIdx
  rw [dif_neg (show ¬(0 : Fin S512x8.rank) ∈ dot_S512x8_S4096x8_S512x4096_1_1_0_0_n_n.lhsBatch by decide), dif_pos (show (0 : Fin S512x8.rank) ∈ dot_S512x8_S4096x8_S512x4096_1_1_0_0_n_n.lhsNonContracting by decide)]
  rfl
theorem featLhs_k (i : S512x4096.Idx) (q : dot_S512x8_S4096x8_S512x4096_1_1_0_0_n_n.contr.Idx) :
    (dot_S512x8_S4096x8_S512x4096_1_1_0_0_n_n.lhsIdx i q 1).val = (q ⟨0, by decide⟩).val :=
  dot_S512x8_S4096x8_S512x4096_1_1_0_0_n_n.lhsIdx_val_of_single rfl i q
theorem featRhs_row (i : S512x4096.Idx) (q : dot_S512x8_S4096x8_S512x4096_1_1_0_0_n_n.contr.Idx) :
    (dot_S512x8_S4096x8_S512x4096_1_1_0_0_n_n.rhsIdx i q 0).val = (i 1).val := by
  unfold DotDims.rhsIdx
  rw [dif_neg (show ¬(0 : Fin S4096x8.rank) ∈ dot_S512x8_S4096x8_S512x4096_1_1_0_0_n_n.rhsBatch by decide), dif_pos (show (0 : Fin S4096x8.rank) ∈ dot_S512x8_S4096x8_S512x4096_1_1_0_0_n_n.rhsNonContracting by decide)]
  rfl
theorem featRhs_k (i : S512x4096.Idx) (q : dot_S512x8_S4096x8_S512x4096_1_1_0_0_n_n.contr.Idx) :
    (dot_S512x8_S4096x8_S512x4096_1_1_0_0_n_n.rhsIdx i q 1).val = (q ⟨0, by decide⟩).val :=
  dot_S512x8_S4096x8_S512x4096_1_1_0_0_n_n.rhsIdx_val_of_single rfl i q

/-- The product over the 8 features into a zero matrix: entry (p, f) is the sum over k of l (p, k) * r (f, k). -/
theorem contractFeatures (l : FVec Ideal S512x8 .bf16) (r : FVec Ideal S4096x8 .bf16) (p : Fin 512) (f : Fin 4096) :
    matmul dot_S512x8_S4096x8_S512x4096_1_1_0_0_n_n none l r (constant (F := Ideal) S512x4096 .f32 0x00000000#32) (ix2 p f)
      = ∑ k : Fin 8, l (ix2 p k) * r (ix2 f k) := by
  simp only [matmul]
  rw [Ideal.matmul_constant_zero_apply, ← Equiv.sum_comp (contrEquiv1 dot_S512x8_S4096x8_S512x4096_1_1_0_0_n_n 8 rfl rfl).symm]
  refine Finset.sum_congr rfl fun k _ => ?_
  have hk := contrEquiv1_symm_val dot_S512x8_S4096x8_S512x4096_1_1_0_0_n_n 8 rfl rfl k
  have el : dot_S512x8_S4096x8_S512x4096_1_1_0_0_n_n.lhsIdx (ix2 p f) ((contrEquiv1 dot_S512x8_S4096x8_S512x4096_1_1_0_0_n_n 8 rfl rfl).symm k) = ix2 p k := funext fun a => Fin.ext (by
    match a with
    | ⟨0, _⟩ => exact featLhs_row _ _
    | ⟨1, _⟩ => exact (featLhs_k _ _).trans hk)
  have er : dot_S512x8_S4096x8_S512x4096_1_1_0_0_n_n.rhsIdx (ix2 p f) ((contrEquiv1 dot_S512x8_S4096x8_S512x4096_1_1_0_0_n_n 8 rfl rfl).symm k) = ix2 f k := funext fun a => Fin.ext (by
    match a with
    | ⟨0, _⟩ => exact featRhs_row _ _
    | ⟨1, _⟩ => exact (featRhs_k _ _).trans hk)
  rw [el, er]

theorem hidLhs_row (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem hidLhs_k (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem hidRhs_row (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem hidRhs_k (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product over the 4096 hidden units into a zero matrix: entry (p, e) is the sum over f of l (p, f) * r (e, f). -/
theorem contractHidden (l : FVec Ideal S512x4096 .bf16) (r : FVec Ideal S1024x4096 .bf16) (p : Fin 512) (e : Fin 1024) :
    matmul dot_S512x4096_S1024x4096_S512x1024_1_1_0_0_n_n none l r (constant (F := Ideal) S512x1024 .f32 0x00000000#32) (ix2 p e)
      = ∑ f : Fin 4096, l (ix2 p f) * r (ix2 e f) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p e) ((contrEquiv1 dot_S512x4096_S1024x4096_S512x1024_1_1_0_0_n_n 4096 rfl rfl).symm k) = ix2 p k := funext fun a => Fin.ext (by
    match a with
    | ⟨0, _⟩ => exact hidLhs_row _ _
    | ⟨1, _⟩ => exact (hidLhs_k _ _).trans hk)
  have er : dot_S512x4096_S1024x4096_S512x1024_1_1_0_0_n_n.rhsIdx (ix2 p e) ((contrEquiv1 dot_S512x4096_S1024x4096_S512x1024_1_1_0_0_n_n 4096 rfl rfl).symm k) = ix2 e k := funext fun a => Fin.ext (by
    match a with
    | ⟨0, _⟩ => exact hidRhs_row _ _
    | ⟨1, _⟩ => exact (hidRhs_k _ _).trans hk)
  rw [el, er]

/-! ## The body's stages -/

variable (x0 : FVec Ideal S512x128 .f32) (x1 : FVec Ideal S1x8 .f32) (x2 : FVec Ideal S4096x8 .bf16)
  (x3 : FVec Ideal S1x4096 .f32) (x4 : FVec Ideal S1024x4096 .bf16) (x5 : FVec Ideal S1x1024 .f32)

/-- The block of encoded angles: the row of trained cosines over every token, times the cosines of features 0..7. -/
def encBlock : FVec Ideal S512x8 .bf16 :=
  truncf .bf16 (mulf (broadcastTo S512x8 (shapeCast S1x8 x1 shapeCasts_S1x8_S1x8) broadcasts_S1x8_S512x8)
    (cos (extractStridedSlice S512x8 ![0, 0] (shapeCast S512x128 x0 shapeCasts_S512x128_S512x128) slices_S512x128_o0_0_S512x8))) bitsLt_bf16_f32

/-- The block of hidden units. -/
def hiddenBlock : FVec Ideal S512x4096 .bf16 :=
  truncf .bf16 (maximumf
    (addf (matmul dot_S512x8_S4096x8_S512x4096_1_1_0_0_n_n none (encBlock x0 x1) (shapeCast S4096x8 x2 shapeCasts_S4096x8_S4096x8) (constant (F := Ideal) S512x4096 .f32 0x00000000#32))
      (broadcastTo S512x4096 (shapeCast S1x4096 x3 shapeCasts_S1x4096_S1x4096) broadcasts_S1x4096_S512x4096))
    (broadcast S512x4096 (Scalar.ofBits (F := Ideal) .f32 0x00000000#32))) bitsLt_bf16_f32

/-- The stored value is the second affine layer of the hidden block. -/
theorem pay_eq : k0_pay1 (F := Ideal) x0 x1 x2 x3 x4 x5
    = addf (matmul dot_S512x4096_S1024x4096_S512x1024_1_1_0_0_n_n none (hiddenBlock x0 x1 x2 x3) (shapeCast S1024x4096 x4 shapeCasts_S1024x4096_S1024x4096) (constant (F := Ideal) S512x1024 .f32 0x00000000#32))
        (broadcastTo S512x1024 (shapeCast S1x1024 x5 shapeCasts_S1x1024_S1x1024) broadcasts_S1x1024_S512x1024) := rfl

/-- Encoded angle k of the block's row p. -/
theorem encBlock_apply (p : Fin 512) (k : Fin 8) :
    encBlock x0 x1 (ix2 p k) = enc (fun k => x1 (ix2 (0 : Fin 1) k)) (fun k => x0 (ix2 p (lane k))) k := by
  unfold encBlock
  show (broadcastTo S512x8 (shapeCast S1x8 x1 shapeCasts_S1x8_S1x8) broadcasts_S1x8_S512x8 (ix2 p k))
      * Ideal.cos (extractStridedSlice S512x8 ![0, 0] (shapeCast S512x128 x0 shapeCasts_S512x128_S512x128) slices_S512x128_o0_0_S512x8 (ix2 p k)) = _
  rw [shapeCast_self, shapeCast_self, broadcastTo_1b_ab_apply,
    slice2_axis1_apply 0 x0 slices_S512x128_o0_0_S512x8 p k (lane k) (by show k.val = 0 + k.val; omega)]
  rfl

/-- Hidden unit f of the block's row p. -/
theorem hiddenBlock_apply (p : Fin 512) (f : Fin 4096) :
    hiddenBlock x0 x1 x2 x3 (ix2 p f)
      = hiddenUnit (fun k => x1 (ix2 (0 : Fin 1) k)) (fun k => x0 (ix2 p (lane k))) (fun f k => x2 (ix2 f k)) (fun f => x3 (ix2 (0 : Fin 1) f)) f := by
  unfold hiddenBlock
  show max (matmul dot_S512x8_S4096x8_S512x4096_1_1_0_0_n_n none (encBlock x0 x1) (shapeCast S4096x8 x2 shapeCasts_S4096x8_S4096x8) (constant (F := Ideal) S512x4096 .f32 0x00000000#32) (ix2 p f)
      + broadcastTo S512x4096 (shapeCast S1x4096 x3 shapeCasts_S1x4096_S1x4096) broadcasts_S1x4096_S512x4096 (ix2 p f)) (Ideal.ofBits .f32 0x00000000#32) = _
  rw [contractFeatures, shapeCast_self, shapeCast_self, broadcastTo_1b_ab_apply]
  unfold hiddenUnit
  have hs : (∑ k : Fin 8, encBlock x0 x1 (ix2 p k) * x2 (ix2 f k))
      = ∑ k : Fin 8, enc (fun k => x1 (ix2 (0 : Fin 1) k)) (fun k => x0 (ix2 p (lane k))) k * x2 (ix2 f k) :=
    Finset.sum_congr rfl fun k _ => by rw [encBlock_apply]
  rw [hs]

/-- Entry (p, e) of what the body stores: the token function of the block's row p at output e. -/
theorem pay_apply (p : Fin 512) (e : Fin 1024) :
    k0_pay1 (F := Ideal) x0 x1 x2 x3 x4 x5 (ix2 p e)
      = tok (fun k => x1 (ix2 (0 : Fin 1) k)) (fun k => x0 (ix2 p (lane k))) (fun f k => x2 (ix2 f k)) (fun f => x3 (ix2 (0 : Fin 1) f))
          (fun e f => x4 (ix2 e f)) (fun e => x5 (ix2 (0 : Fin 1) e)) e := by
  rw [pay_eq]
  show matmul dot_S512x4096_S1024x4096_S512x1024_1_1_0_0_n_n none (hiddenBlock x0 x1 x2 x3) (shapeCast S1024x4096 x4 shapeCasts_S1024x4096_S1024x4096) (constant (F := Ideal) S512x1024 .f32 0x00000000#32) (ix2 p e)
      + broadcastTo S512x1024 (shapeCast S1x1024 x5 shapeCasts_S1x1024_S1x1024) broadcasts_S1x1024_S512x1024 (ix2 p e) = _
  rw [contractHidden, shapeCast_self, shapeCast_self, broadcastTo_1b_ab_apply]
  unfold tok
  have hs : (∑ f : Fin 4096, hiddenBlock x0 x1 x2 x3 (ix2 p f) * x4 (ix2 e f))
      = ∑ f : Fin 4096, hiddenUnit (fun k => x1 (ix2 (0 : Fin 1) k)) (fun k => x0 (ix2 p (lane k))) (fun f k => x2 (ix2 f k)) (fun f => x3 (ix2 (0 : Fin 1) f)) f * x4 (ix2 e f) :=
    Finset.sum_congr rfl fun f _ => by rw [hiddenBlock_apply]
  rw [hs]

end Cert.KernelIdeal.Body

end
-- ==== Proof.RowsLayout.lean ====
/-
  The batch as a list of rows.

  The kernel sees the [8, 4096, 1024] batch as 32768 rows of 1024 features — token (b, s) is row
  b * 4096 + s, the row-major merge of the two leading axes — and the vectors of trained cosines and biases
  as one-row matrices. Its 32768 x 1024 result is split back into the batch the same way. Here: the result
  written over rows, and that splitting it back gives the batch result when the rows, the cosine row and the
  bias rows are those reshapes of the arguments.
-/
import proofs.«111499_j65481071396242_2_alg».proof.Proof.TokenMlp
import Idealize.ShloMosaic.Lib.Pipeline.Value
import Idealize.ShloMosaic.Lib.ValueLayout

noncomputable section

namespace Cert.TokenMlp

open Idealize.ShloMosaic Idealize.ShloMosaic.ValueIdx

/-- Token (b, s) as a row of the merged token axis. -/
def rowOf (b : Fin 8) (s : Fin 4096) : Fin 32768 :=
  ⟨b.val * 4096 + s.val, by have := b.isLt; have := s.isLt; omega⟩

/-- The result over rows: row r at output e is the token function of row r's first 8 features, the cosines and
    biases read off their one-row matrices. -/
def rowsResult (X : (⟨2, ![32768, 1024]⟩ : Shape).Idx → EReal) (C : (⟨2, ![1, 8]⟩ : Shape).Idx → EReal)
    (W1 : (⟨2, ![4096, 8]⟩ : Shape).Idx → EReal) (B1 : (⟨2, ![1, 4096]⟩ : Shape).Idx → EReal)
    (W2 : (⟨2, ![1024, 4096]⟩ : Shape).Idx → EReal) (B2 : (⟨2, ![1, 1024]⟩ : Shape).Idx → EReal) :
    (⟨2, ![32768, 1024]⟩ : Shape).Idx → EReal :=
  fun i => tok (fun k => C (ix2 (0 : Fin 1) k)) (fun k => X (ix2 (i 0) (col k))) (fun f k => W1 (ix2 f k))
    (fun f => B1 (ix2 (0 : Fin 1) f)) (fun e f => W2 (ix2 e f)) (fun e => B2 (ix2 (0 : Fin 1) e)) (i 1)

theorem rowsResult_apply (X : (⟨2, ![32768, 1024]⟩ : Shape).Idx → EReal) (C : (⟨2, ![1, 8]⟩ : Shape).Idx → EReal)
    (W1 : (⟨2, ![4096, 8]⟩ : Shape).Idx → EReal) (B1 : (⟨2, ![1, 4096]⟩ : Shape).Idx → EReal)
    (W2 : (⟨2, ![1024, 4096]⟩ : Shape).Idx → EReal) (B2 : (⟨2, ![1, 1024]⟩ : Shape).Idx → EReal)
    (r : Fin 32768) (e : Fin 1024) :
    rowsResult X C W1 B1 W2 B2 (ix2 r e)
      = tok (fun k => C (ix2 (0 : Fin 1) k)) (fun k => X (ix2 r (col k))) (fun f k => W1 (ix2 f k))
          (fun f => B1 (ix2 (0 : Fin 1) f)) (fun e f => W2 (ix2 e f)) (fun e => B2 (ix2 (0 : Fin 1) e)) e := rfl

theorem resultArr_apply (x : (⟨3, ![8, 4096, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (b : Fin 8) (s : Fin 4096) (e : Fin 1024) :
    resultArr x th W1 b1 W2 b2 (ix3 b s e) = result x th W1 b1 W2 b2 b s e := rfl

/-- Row b * 4096 + s of the merged batch is token (b, s). -/
theorem rows_of_batch (x : (⟨3, ![8, 4096, 1024]⟩ : Shape).Idx → EReal)
    (h : (⟨3, ![8, 4096, 1024]⟩ : Shape).ShapeCasts ⟨2, ![32768, 1024]⟩) (b : Fin 8) (s : Fin 4096) (q : Fin 1024) :
    shapeCast ⟨2, ![32768, 1024]⟩ x h (ix2 (rowOf b s) q) = x (ix3 b s q) :=
  shapeCast_apply x h _ _ (by rw [Shape.rowMajor_val_three, Shape.rowMajor_val_two]; rfl)

/-- Token (b, s) of the split result is row b * 4096 + s. -/
theorem batch_of_rows (Y : (⟨2, ![32768, 1024]⟩ : Shape).Idx → EReal)
    (h : (⟨2, ![32768, 1024]⟩ : Shape).ShapeCasts ⟨3, ![8, 4096, 1024]⟩) (b : Fin 8) (s : Fin 4096) (e : Fin 1024) :
    shapeCast ⟨3, ![8, 4096, 1024]⟩ Y h (ix3 b s e) = Y (ix2 (rowOf b s) e) :=
  shapeCast_apply Y h _ _ (by rw [Shape.rowMajor_val_two, Shape.rowMajor_val_three]; rfl)

/-- The rows result of the reshaped arguments, split back into the batch, is the batch result. The trained
    cosines enter as the one-row matrix of the cosines of the rotation angles. -/
theorem batch_of_rowsResult (x : (⟨3, ![8, 4096, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (hx : (⟨3, ![8, 4096, 1024]⟩ : Shape).ShapeCasts ⟨2, ![32768, 1024]⟩)
    (hth : (⟨1, ![8]⟩ : Shape).ShapeCasts ⟨2, ![1, 8]⟩) (hb1 : (⟨1, ![4096]⟩ : Shape).ShapeCasts ⟨2, ![1, 4096]⟩)
    (hb2 : (⟨1, ![1024]⟩ : Shape).ShapeCasts ⟨2, ![1, 1024]⟩)
    (hout : (⟨2, ![32768, 1024]⟩ : Shape).ShapeCasts ⟨3, ![8, 4096, 1024]⟩) :
    shapeCast ⟨3, ![8, 4096, 1024]⟩
        (rowsResult (shapeCast ⟨2, ![32768, 1024]⟩ x hx) (shapeCast ⟨2, ![1, 8]⟩ (fun i => Ideal.cos (th i)) hth) W1
          (shapeCast ⟨2, ![1, 4096]⟩ b1 hb1) W2 (shapeCast ⟨2, ![1, 1024]⟩ b2 hb2)) hout
      = resultArr x th W1 b1 W2 b2 := by
  funext i
  obtain ⟨b, s, e, rfl⟩ : ∃ (b : Fin 8) (s : Fin 4096) (e : Fin 1024), i = ix3 b s e := ⟨i 0, i 1, i 2, eq_ix3 i⟩
  rw [batch_of_rows, rowsResult_apply, resultArr_apply]
  unfold result
  refine tok_congr (fun k => ?_) (fun k => ?_) (fun f k => rfl) (fun f => ?_) (fun e f => rfl) (fun e => ?_) rfl
  · exact shapeCast_a_1a_apply (fun i => Ideal.cos (th i)) hth 0 k
  · exact rows_of_batch x hx b s (col k)
  · exact shapeCast_a_1a_apply b1 hb1 0 f
  · exact shapeCast_a_1a_apply b2 hb2 0 e

end Cert.TokenMlp

end
-- ==== Proof.BlocksToArray.lean ====
/-
  From the blocks the grid writes to the whole result.

  The grid has 64 points. Point t reads rows 512 t .. 512 t + 511 of the merged batch (its first 128 features)
  and the whole of the cosine row, of both weight matrices and of both bias rows, and writes rows
  512 t .. 512 t + 511 of the 32768 x 1024 output. What it writes is, entry by entry, the rows result of the
  arrays the region finds; every row lies in the block of point row / 512, so after the run the output array
  is the rows result everywhere. The arrays the region finds are the row-major reshapes of the arguments (and
  the cosines of the rotation angles), and the program's result is the output split back into the batch: the
  batch result of the arguments.
-/
import proofs.«111499_j65481071396242_2_alg».proof.Proof.Gen.KernelIdeal.Frame
import proofs.«111499_j65481071396242_2_alg».proof.Proof.BodyAtIndex
import proofs.«111499_j65481071396242_2_alg».proof.Proof.RowsLayout
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.TokenMlp
open Idealize.ShloMosaic.Pipeline (Dat)

variable (m : (ℓ : Loc nD τ sig) → Buf (Elt Ideal) ℓ) (ρ : Dev nD → PrngReg)

theorem zeroOff : (![0, 0] : Fin 2 → Nat) = fun _ => 0 := funext fun a => by fin_cases a <;> rfl

/-- The block each window holds at point t: the token block t of the input and of the output, block (0, 0) —
    the whole array — of everything else. -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of token block t, as a row of the merged batch. -/
def rowAt (t : Fin cfg0.N) (p : Fin 512) : Fin 32768 :=
  ⟨t.val * 512 + p.val, by have ht : t.val < 64 := Nat.lt_of_lt_of_eq t.isLt N_0; have := p.isLt; omega⟩

/-- The rows result of the arrays as the region finds them. -/
def rowsOf (c : Dev nD) : S32768x1024.Idx → EReal :=
  rowsResult (V m c main_v0) (V m c main_v2) (V m c main_v3) (V m c main_v4) (V m c main_v5) (V m c main_v6)

/-! ## What each window's block reads of its array -/

theorem read_tokens (c : Dev nD) (t : Fin cfg0.N) (p : Fin 512) (k : Fin 8) :
    iblk m c 0 t (ix2 p (Body.lane k)) = V m c main_v0 (ix2 (rowAt t p) (col k)) := by
  obtain ⟨e00, e01, -⟩ := blockIdx t
  show V m c main_v0 (((cfg0.win 0).blk t).view.emb (ix2 p (Body.lane k))) = _
  have h : ((cfg0.win 0).blk t).view.emb (ix2 p (Body.lane k)) = ix2 (rowAt t p) (col k) := by
    funext a; apply Fin.ext
    match a with
    | ⟨0, _⟩ => show win0_0.index t (0 : Fin 2) * 512 + 1 * p.val = t.val * 512 + p.val; omega
    | ⟨1, _⟩ => show win0_0.index t (1 : Fin 2) * 128 + 1 * k.val = k.val; omega
  rw [h]

theorem read_cosines (c : Dev nD) (t : Fin cfg0.N) (k : Fin 8) :
    iblk m c 1 t (ix2 (0 : Fin 1) k) = V m c main_v2 (ix2 (0 : Fin 1) k) := by
  obtain ⟨-, -, e10, e11, -⟩ := blockIdx t
  show V m c main_v2 (((cfg0.win 1).blk t).view.emb (ix2 (0 : Fin 1) k)) = _
  have h : ((cfg0.win 1).blk t).view.emb (ix2 (0 : Fin 1) k) = ix2 (0 : Fin 1) k := by
    funext a; apply Fin.ext
    match a with
    | ⟨0, _⟩ => show win0_1.index t (0 : Fin 2) * 1 + 1 * 0 = 0; omega
    | ⟨1, _⟩ => show win0_1.index t (1 : Fin 2) * 8 + 1 * k.val = k.val; omega
  rw [h]

theorem read_W1 (c : Dev nD) (t : Fin cfg0.N) (f : Fin 4096) (k : Fin 8) :
    iblk m c 2 t (ix2 f k) = V m c main_v3 (ix2 f k) := by
  obtain ⟨-, -, -, -, e20, e21, -⟩ := blockIdx t
  show V m c main_v3 (((cfg0.win 2).blk t).view.emb (ix2 f k)) = _
  have h : ((cfg0.win 2).blk t).view.emb (ix2 f k) = ix2 f k := by
    funext a; apply Fin.ext
    match a with
    | ⟨0, _⟩ => show win0_2.index t (0 : Fin 2) * 4096 + 1 * f.val = f.val; omega
    | ⟨1, _⟩ => show win0_2.index t (1 : Fin 2) * 8 + 1 * k.val = k.val; omega
  rw [h]

theorem read_b1 (c : Dev nD) (t : Fin cfg0.N) (f : Fin 4096) :
    iblk m c 3 t (ix2 (0 : Fin 1) f) = V m c main_v4 (ix2 (0 : Fin 1) f) := by
  obtain ⟨-, -, -, -, -, -, e30, e31, -⟩ := blockIdx t
  show V m c main_v4 (((cfg0.win 3).blk t).view.emb (ix2 (0 : Fin 1) f)) = _
  have h : ((cfg0.win 3).blk t).view.emb (ix2 (0 : Fin 1) f) = ix2 (0 : Fin 1) f := by
    funext a; apply Fin.ext
    match a with
    | ⟨0, _⟩ => show win0_3.index t (0 : Fin 2) * 1 + 1 * 0 = 0; omega
    | ⟨1, _⟩ => show win0_3.index t (1 : Fin 2) * 4096 + 1 * f.val = f.val; omega
  rw [h]

theorem read_W2 (c : Dev nD) (t : Fin cfg0.N) (e : Fin 1024) (f : Fin 4096) :
    iblk m c 4 t (ix2 e f) = V m c main_v5 (ix2 e f) := by
  obtain ⟨-, -, -, -, -, -, -, -, e40, e41, -⟩ := blockIdx t
  show V m c main_v5 (((cfg0.win 4).blk t).view.emb (ix2 e f)) = _
  have h : ((cfg0.win 4).blk t).view.emb (ix2 e f) = ix2 e f := by
    funext a; apply Fin.ext
    match a with
    | ⟨0, _⟩ => show win0_4.index t (0 : Fin 2) * 1024 + 1 * e.val = e.val; omega
    | ⟨1, _⟩ => show win0_4.index t (1 : Fin 2) * 4096 + 1 * f.val = f.val; omega
  rw [h]

theorem read_b2 (c : Dev nD) (t : Fin cfg0.N) (e : Fin 1024) :
    iblk m c 5 t (ix2 (0 : Fin 1) e) = V m c main_v6 (ix2 (0 : Fin 1) e) := by
  obtain ⟨-, -, -, -, -, -, -, -, -, -, e50, e51, -⟩ := blockIdx t
  show V m c main_v6 (((cfg0.win 5).blk t).view.emb (ix2 (0 : Fin 1) e)) = _
  have h : ((cfg0.win 5).blk t).view.emb (ix2 (0 : Fin 1) e) = ix2 (0 : Fin 1) e := by
    funext a; apply Fin.ext
    match a with
    | ⟨0, _⟩ => show win0_5.index t (0 : Fin 2) * 1 + 1 * 0 = 0; omega
    | ⟨1, _⟩ => show win0_5.index t (1 : Fin 2) * 1024 + 1 * e.val = e.val; omega
  rw [h]

/-- Entry (p, e) of the output block of point t is entry (row p of block t, e) of the output array. -/
theorem out_entry (t : Fin cfg0.N) (p : Fin 512) (e : Fin 1024) :
    ((cfg0.win 6).blk t).view.emb (ix2 p e) = ix2 (rowAt t p) e := by
  obtain ⟨-, -, -, -, -, -, -, -, -, -, -, -, e60, e61⟩ := blockIdx t
  funext a; apply Fin.ext
  match a with
  | ⟨0, _⟩ => show win0_6.index t (0 : Fin 2) * 512 + 1 * p.val = t.val * 512 + p.val; omega
  | ⟨1, _⟩ => show win0_6.index t (1 : Fin 2) * 1024 + 1 * e.val = e.val; omega

/-! ## What a point writes back, and the array after the run -/

/-- Point t writes back block t of the rows result. -/
theorem flushed_eq (c : Dev nD) (t : Fin cfg0.N) :
    (dats m 0 c).flushed 6 t = ((cfg0.win 6).blk t).view.read (Elt Ideal) (rowsOf m c) := by
  show (cfg0.win 6).cut (grid0.coords t) ((dats m 0 c).after 6 t) = _
  rw [after0_6]
  unfold out0_6
  rw [View.canon_unit_zero zeroOff]
  simp only [View.ld_unit_zero (S := S512x128) zeroOff, View.ld_unit_zero (S := S1x8) zeroOff,
    View.ld_unit_zero (S := S4096x8) zeroOff, View.ld_unit_zero (S := S1x4096) zeroOff,
    View.ld_unit_zero (S := S1024x4096) zeroOff, View.ld_unit_zero (S := S1x1024) zeroOff]
  funext j
  obtain ⟨p, e, rfl⟩ : ∃ (p : Fin 512) (e : Fin 1024), j = ix2 p e := ⟨j 0, j 1, eq_ix2 j⟩
  show k0_pay1 (iblk m c 0 t) (iblk m c 1 t) (iblk m c 2 t) (iblk m c 3 t) (iblk m c 4 t) (iblk m c 5 t) (ix2 p e)
      = rowsOf m c (((cfg0.win 6).blk t).view.emb (ix2 p e))
  rw [out_entry t p e]
  refine (Body.pay_apply (iblk m c 0 t) (iblk m c 1 t) (iblk m c 2 t) (iblk m c 3 t) (iblk m c 4 t) (iblk m c 5 t) p e).trans ?_
  unfold rowsOf
  rw [rowsResult_apply]
  exact tok_congr (fun k => read_cosines m c t k) (fun k => read_tokens m c t p k) (fun f k => read_W1 m c t f k)
    (fun f => read_b1 m c t f) (fun e f => read_W2 m c t e f) (fun e => read_b2 m c t e) rfl

/-- A row-and-column is in point t's block iff its row is one of the block's 512 and its column any of the 1024. -/
theorem mem_blk (t : Fin cfg0.N) (i : S32768x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v7).slice (win0_6.rect t)).set ↔ _
  rw [View.set_slice_whole, Rect.mem_set_unit]
  exact Iff.rfl

/-- Every entry of the output is written: row r by point r / 512. -/
theorem covered (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have hN : cfg0.N = 64 := N_0
  let t : Fin cfg0.N := ⟨(i 0).val / 512, by rw [hN]; omega⟩
  have htv : t.val = (i 0).val / 512 := rfl
  obtain ⟨-, -, -, -, -, -, -, -, -, -, -, -, e60, e61⟩ := blockIdx t
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- After the run the output array is the rows result of the arrays the region found. -/
theorem final (c : Dev nD) : (dats m 0 c).arrAt 6 cfg0.N = rowsOf m c :=
  (dats m 0 c).arrAt_eq_of_cover 6 (rowsOf m c) (fun t _ => flushed_eq m c t) covered

/-! ## The arrays the region finds: the host's reshapes of the arguments -/

theorem found_rows (c : Dev nD) : (V m c main_v0 : S32768x1024.Idx → EReal)
    = shapeCast S32768x1024 (m ((c : Thread nD τ).loc main_arg0)) shapeCasts_S8x4096x1024_S32768x1024 := by
  show StableHlo.after hostOps0 (fun b => m (c, b)) (Proc.devRef .tc main_v0) = _
  after_results
  rfl

theorem found_cosines (c : Dev nD) : (V m c main_v2 : S1x8.Idx → EReal)
    = shapeCast S1x8 (fun i => Ideal.cos (m ((c : Thread nD τ).loc main_arg1) i)) shapeCasts_S8_S1x8 := by
  show StableHlo.after hostOps0 (fun b => m (c, b)) (Proc.devRef .tc main_v2) = _
  after_results
  rfl

theorem found_W1 (c : Dev nD) : (V m c main_v3 : S4096x8.Idx → EReal) = m ((c : Thread nD τ).loc main_arg2) := by
  show StableHlo.after hostOps0 (fun b => m (c, b)) (Proc.devRef .tc main_v3) = _
  after_results
  rfl

theorem found_b1 (c : Dev nD) : (V m c main_v4 : S1x4096.Idx → EReal)
    = shapeCast S1x4096 (m ((c : Thread nD τ).loc main_arg3)) shapeCasts_S4096_S1x4096 := by
  show StableHlo.after hostOps0 (fun b => m (c, b)) (Proc.devRef .tc main_v4) = _
  after_results
  rfl

theorem found_W2 (c : Dev nD) : (V m c main_v5 : S1024x4096.Idx → EReal) = m ((c : Thread nD τ).loc main_arg4) := by
  show StableHlo.after hostOps0 (fun b => m (c, b)) (Proc.devRef .tc main_v5) = _
  after_results
  rfl

theorem found_b2 (c : Dev nD) : (V m c main_v6 : S1x1024.Idx → EReal)
    = shapeCast S1x1024 (m ((c : Thread nD τ).loc main_arg5)) shapeCasts_S1024_S1x1024 := by
  show StableHlo.after hostOps0 (fun b => m (c, b)) (Proc.devRef .tc main_v6) = _
  after_results
  rfl

/-! ## The program's result -/

/-- The line after the region splits the output array back into the batch. -/
theorem tail_eq (c : Dev nD) :
    Pipeline.afterTail₀ cfgs (dats m) 0 (V0 m) [hostOps1] c main_v8
      = shapeCast S8x4096x1024 ((dats m 0 c).arrAt 6 cfg0.N) shapeCasts_S32768x1024_S8x4096x1024 := by
  unfold Pipeline.afterTail₀
  show StableHlo.after hostOps1 _ (Proc.devRef .tc main_v8) = _
  after_results
  rw [Pipeline.withArrays_arr spec0 launch0.win.arr_inj c _ _ 6]
  rfl

/-- The program's result is the batch result of its arguments. -/
theorem result_eq (c : Dev nD) :
    Pipeline.afterTail₀ cfgs (dats m) 0 (V0 m) [hostOps1] c main_v8
      = resultArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_eq, final]
  unfold rowsOf
  rw [found_rows, found_cosines, found_W1, found_b1, found_W2, found_b2]
  exact batch_of_rowsResult _ _ _ _ _ _ _ _ _ _ _

/-- Every execution ends with the result array at the batch result of the arguments, the arguments unchanged. -/
theorem run : θ_run defs (onTc (τ := τ) (main (F := Ideal))) ⟨m, fun _ => 0, ρ⟩ fun r => ∀ c : Dev nD,
      r.2.mem ((c.tc : Thread nD τ).loc main_v8)
        = resultArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.lean ====
/-
  A fused token perceptron against its einsum reference, equal on the extended reals.

  Both programs map a batch x : [8, 4096, 1024], rotation angles th : [8], weights W1 : [4096, 8], W2 : [1024, 4096]
  and biases b1 : [4096], b2 : [1024] to
      out (b, s, e) = (Σ f, max ((Σ k, (cos th k * cos x (b, s, k)) * W1 (f, k)) + b1 f) 0 * W2 (e, f)) + b2 e,
  k over the first 8 features and f over the 4096 hidden units (Proof/TokenMlp.lean).
  The reference computes it on the whole batch with two contractions (Proof/RefIsSpec.lean). The kernel merges the two
  leading axes into 32768 rows, takes the cosines of the angles once, and runs a grid of 64 points, each computing 512
  rows through two matrix products into zero accumulators (Proof/BodyAtIndex.lean); the blocks tile the output, which
  is then split back into the batch (Proof/BlocksToArray.lean, Proof/RowsLayout.lean). The narrowing of the weights and
  of the two intermediate blocks to a shorter float format is the identity on the extended reals, the kernel's cosine
  and the host's are one function there, and every sum is taken over the same index set in both programs with the
  factors in the same order, so the two results agree term by term: the inputs' finiteness is not used.
  No operation was rewritten when the kernel was idealized, so there is nothing to preserve.
-/
import proofs.«111499_j65481071396242_2_alg».proof.Defs
import proofs.«111499_j65481071396242_2_alg».proof.Proof.Gen.Kernel
import proofs.«111499_j65481071396242_2_alg».proof.Proof.Gen.Kernel.Skeleton
import proofs.«111499_j65481071396242_2_alg».proof.Proof.Gen.Kernel.Launch
import proofs.«111499_j65481071396242_2_alg».proof.Proof.Gen.Kernel.Points
import proofs.«111499_j65481071396242_2_alg».proof.Proof.Gen.Kernel.Frame
import proofs.«111499_j65481071396242_2_alg».proof.Proof.Gen.KernelIdeal
import proofs.«111499_j65481071396242_2_alg».proof.Proof.Gen.KernelIdeal.Skeleton
import proofs.«111499_j65481071396242_2_alg».proof.Proof.Gen.KernelIdeal.Launch
import proofs.«111499_j65481071396242_2_alg».proof.Proof.Gen.KernelIdeal.Points
import proofs.«111499_j65481071396242_2_alg».proof.Proof.Gen.KernelIdeal.Frame
import proofs.«111499_j65481071396242_2_alg».proof.Proof.Gen.ReferenceIdeal
import proofs.«111499_j65481071396242_2_alg».proof.Proof.Gen.ReferenceIdeal.Run
import proofs.«111499_j65481071396242_2_alg».proof.Proof.Gen.ReferenceIdeal.Read
import proofs.«111499_j65481071396242_2_alg».proof.Proof.Gen.Pre_finite_inputs
import proofs.«111499_j65481071396242_2_alg».proof.Proof.TokenMlp
import proofs.«111499_j65481071396242_2_alg».proof.Proof.RefIsSpec
import proofs.«111499_j65481071396242_2_alg».proof.Proof.BlocksToArray
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the batch result of those arguments. -/
theorem algebraic : Cert.algebraic_KernelIdeal_ReferenceIdeal := by
  intro m ρ m' ρ' _ hagree
  refine ⟨fun c => Cert.TokenMlp.resultArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.ref_is_result,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
